-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192x256 : Shape := ⟨3, ![16, 8192, 256]⟩
abbrev S256x256 : Shape := ⟨2, ![256, 256]⟩
abbrev S256 : Shape := ⟨1, ![256]⟩
abbrev S_ : Shape := ⟨0, ![]⟩

class Facts : Prop where
  bcast_S_S16x8192x256 : S_.BroadcastsInDim S16x8192x256 (![] : Fin 0 → Fin S16x8192x256.rank)
  reducesTo_S16x8192x256_S_d0_1_2 : S16x8192x256.ReducesTo [0, 1, 2] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S16x8192x256 .f32) (main_arg1 : FVec F S256x256 .f32) (main_arg2 : FVec F S256 .f32) : IVec S_ 1 :=
  let main_v0 : FVec F S16x8192x256 .f32 := Host.absf main_arg0
  let main_cst : FVec F S_ .f32 := constant S_ .f32 0x7F800000#32
  let main_v1 : FVec F S16x8192x256 .f32 := broadcastInDim S16x8192x256 ![] bcast_S_S16x8192x256 main_cst
  let main_v2 : IVec S16x8192x256 1 := cmpf .olt main_v0 main_v1
  let main_c : IVec S_ 1 := constantI S_ 1 1#1
  let main_v3 : IVec S_ 1 := (fun x v => Host.reduce IntOp.andi x v reducesTo_S16x8192x256_S_d0_1_2 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S16x8192x256 : Shape := ⟨3, ![16, 8192, 256]⟩
abbrev S256x256 : Shape := ⟨2, ![256, 256]⟩
abbrev S256 : Shape := ⟨1, ![256]⟩
abbrev S131072x256 : Shape := ⟨2, ![131072, 256]⟩
abbrev S1x256 : Shape := ⟨2, ![1, 256]⟩
abbrev S8192x256 : Shape := ⟨2, ![8192, 256]⟩
abbrev S2048x256 : Shape := ⟨2, ![2048, 256]⟩

abbrev nBuf : Space → Nat
  | .hbm => 7
  | .vmem => 6
  | .smem => 0
  | _ => 0

abbrev bufTy : (tb : Table) → Fin (tcTables nBuf tb) → BufTy
  | .hbm, ⟨0, _⟩ => ⟨S16x8192x256, .f32⟩
  | .hbm, ⟨1, _⟩ => ⟨S256x256, .f32⟩
  | .hbm, ⟨2, _⟩ => ⟨S256, .f32⟩
  | .hbm, ⟨3, _⟩ => ⟨S131072x256, .f32⟩
  | .hbm, ⟨4, _⟩ => ⟨S1x256, .f32⟩
  | .hbm, ⟨5, _⟩ => ⟨S131072x256, .f32⟩
  | .hbm, ⟨6, _⟩ => ⟨S16x8192x256, .f32⟩
  | .local _ .vmem, ⟨0, _⟩ => ⟨S8192x256, .f32⟩
  | .local _ .vmem, ⟨1, _⟩ => ⟨S8192x256, .f32⟩
  | .local _ .vmem, ⟨2, _⟩ => ⟨S256x256, .f32⟩
  | .local _ .vmem, ⟨3, _⟩ => ⟨S1x256, .f32⟩
  | .local _ .vmem, ⟨4, _⟩ => ⟨S8192x256, .f32⟩
  | .local _ .vmem, ⟨5, _⟩ => ⟨S8192x256, .f32⟩
  | _, _ => ⟨S16x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c4_i32 : BitVec 32 := 4#32
  let v4 : BitVec 32 := Scalar.addi c0_i32 c4_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c2048_i32 : BitVec 32 := 2048#32
  let v5 : BitVec 32 := Scalar.muli arg5 c2048_i32
  v5
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2048_i32 : BitVec 32 := 2048#32
  let v5 : BitVec 32 := Scalar.muli arg5 c2048_i32
  let v6 : BitVec 32 := v5
  let v7 : Index := Scalar.indexCast v6
  let c0_4 : Index := 0#32
  ![v7.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x8192x256_S131072x256 : S16x8192x256.ShapeCasts S131072x256
  shapeCasts_S256_S1x256 : S256.ShapeCasts S1x256
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  inb_S1x256_S1x256_0_0 : ∀ a, (![0, 0] : Fin 2 → Nat) a + S1x256.size a ≤ S1x256.size a
  h_S1x256 : 0 < S1x256.numel
  shapeCasts_S1x256_S1x256 : S1x256.ShapeCasts S1x256
  h_S2048x256 : 0 < S2048x256.numel
  shapeCasts_S2048x256_S2048x256 : S2048x256.ShapeCasts S2048x256
  broadcasts_S1x256_S2048x256 : S1x256.Broadcasts S2048x256
  shapeCasts_S131072x256_S16x8192x256 : S131072x256.ShapeCasts S16x8192x256
  dot_S2048x256_S256x256_S2048x256_1_1_0_0_n_n_wf : DotDims.WF S2048x256 S256x256 S2048x256 [1] [1] [0] [0] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x256.size a ≤ S131072x256.size a
  hwx0_0 : ∀ i : grid0.Coords, EltTy.bits .f32 = 32 ∨ (Rect.block (s := S131072x256) S8192x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x256.size a ≤ S131072x256.size a
  hwx0_3 : ∀ i : grid0.Coords, EltTy.bits .f32 = 32 ∨ (Rect.block (s := S131072x256) S8192x256.size (cc0_transform_3 i) (hinb0_3 i)).WholeWords (EltTy.packing .f32)

variable [Facts₀]

def dot_S2048x256_S256x256_S2048x256_1_1_0_0_n_n : DotDims S2048x256 S256x256 S2048x256 where
  lhsContracting := [1]
  rhsContracting := [1]
  lhsNonContracting := [0]
  rhsNonContracting := [0]
  lhsBatch := []
  rhsBatch := []
  wf := dot_S2048x256_S256x256_S2048x256_1_1_0_0_n_n_wf

abbrev win0_0 : Pipeline.Window sig grid0 :=
  Pipeline.Window.ofSpec (Memref.whole main_v0) S8192x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S8192x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x8192x256 : Shape := ⟨3, ![16, 8192, 256]⟩
abbrev S256x256 : Shape := ⟨2, ![256, 256]⟩
abbrev S256 : Shape := ⟨1, ![256]⟩
abbrev S1x1x256 : Shape := ⟨3, ![1, 1, 256]⟩

abbrev nBuf : Space → Nat
  | .hbm => 7
  | .vmem => 0
  | .smem => 0
  | _ => 0

abbrev bufTy : (tb : Table) → Fin (tcTables nBuf tb) → BufTy
  | .hbm, ⟨0, _⟩ => ⟨S16x8192x256, .f32⟩
  | .hbm, ⟨1, _⟩ => ⟨S256x256, .f32⟩
  | .hbm, ⟨2, _⟩ => ⟨S256, .f32⟩
  | .hbm, ⟨3, _⟩ => ⟨S16x8192x256, .f32⟩
  | .hbm, ⟨4, _⟩ => ⟨S1x1x256, .f32⟩
  | .hbm, ⟨5, _⟩ => ⟨S16x8192x256, .f32⟩
  | .hbm, ⟨6, _⟩ => ⟨S16x8192x256, .f32⟩
  | _, _ => ⟨S16x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x8192x256_0_1_2 : S1x1x256.BroadcastsInDim S16x8192x256 (![0, 1, 2] : Fin 3 → Fin S16x8192x256.rank)
  dot_S16x8192x256_S256x256_S16x8192x256_2_1_01_0_n_n_wf : DotDims.WF S16x8192x256 S256x256 S16x8192x256 [2] [1] [0, 1] [0] [] []

variable [Facts₀]

def dot_S16x8192x256_S256x256_S16x8192x256_2_1_01_0_n_n : DotDims S16x8192x256 S256x256 S16x8192x256 where
  lhsContracting := [2]
  rhsContracting := [1]
  lhsNonContracting := [0, 1]
  rhsNonContracting := [0]
  lhsBatch := []
  rhsBatch := []
  wf := dot_S16x8192x256_S256x256_S16x8192x256_2_1_01_0_n_n_wf

class Facts : Prop extends Facts₀ where

variable [Facts]
-- ==== Proof.DensePayload.lean ====
/-
  One store of the kernel body, entry by entry, on the extended reals.

  Each trip of the body's loop takes a band `a` of 2048 rows of the current input block, the whole weight matrix `w`
  ([256, 256], row `n` holding the weights of output feature `n`) and the bias row `b` ([1, 256]), and stores
  `a · wᵀ + b`: the matrix product contracts the second axis of BOTH operands, starts from a zero accumulator, and the
  bias row is repeated down the rows. Changes of float format are the identity on the extended reals and a shape cast to the
  same shape moves nothing, so entry `(r, n)` of the stored band is

      (∑ k, a[r, k] · w[n, k]) + b[0, n].
-/
import proofs.«171428_j57827439673842_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx
open scoped BigOperators

namespace Cert.DenseBody

open Cert.KernelIdeal Cert.KernelIdeal.Gen

/-- The band product's dimension numbers: both operands contract their second axis. -/
abbrev DD : DotDims S2048x256 S256x256 S2048x256 := dot_S2048x256_S256x256_S2048x256_1_1_0_0_n_n

/-- The left operand is read at the output's row and the contraction index, -/
theorem lhs_idx (r : Fin 2048) (n : Fin 256) (k : Fin 256) :
    DD.lhsIdx (ix2 r n) ((contrEquiv1 DD 256 rfl rfl).symm k) = ix2 r k := by
  have hk := contrEquiv1_symm_val DD 256 rfl rfl k
  refine funext fun a => Fin.ext ?_
  match a with
  | ⟨0, _⟩ =>
    show (DD.lhsIdx (ix2 r n) _ 0).val = r.val
    unfold DotDims.lhsIdx
    rw [dif_neg (show ¬(0 : Fin S2048x256.rank) ∈ DD.lhsBatch by decide),
      dif_pos (show (0 : Fin S2048x256.rank) ∈ DD.lhsNonContracting by decide)]
    rfl
  | ⟨1, _⟩ => exact (DD.lhsIdx_val_of_single rfl (ix2 r n) _).trans hk

/-- and the right operand at the output's COLUMN and the contraction index: the weights are used transposed. -/
theorem rhs_idx (r : Fin 2048) (n : Fin 256) (k : Fin 256) :
    DD.rhsIdx (ix2 r n) ((contrEquiv1 DD 256 rfl rfl).symm k) = ix2 n k := by
  have hk := contrEquiv1_symm_val DD 256 rfl rfl k
  refine funext fun a => Fin.ext ?_
  match a with
  | ⟨0, _⟩ =>
    show (DD.rhsIdx (ix2 r n) _ 0).val = n.val
    unfold DotDims.rhsIdx
    rw [dif_neg (show ¬(0 : Fin S256x256.rank) ∈ DD.rhsBatch by decide),
      dif_pos (show (0 : Fin S256x256.rank) ∈ DD.rhsNonContracting by decide)]
    rfl
  | ⟨1, _⟩ => exact (DD.rhsIdx_val_of_single rfl (ix2 r n) _).trans hk

/-- The band product into a zero accumulator, at entry `(r, n)`: the inner product of row `r` of the band with row `n`
    of the weights. -/
theorem band_matmul_apply (a : FVec Ideal S2048x256 .bf16) (w : FVec Ideal S256x256 .bf16) (r : Fin 2048) (n : Fin 256) :
    matmul DD none a w (constant S2048x256 .f32 0x00000000#32) (ix2 r n) = ∑ k : Fin 256, a (ix2 r k) * w (ix2 n k) := by
  refine (Ideal.matmul_constant_zero_apply DD none a w (ix2 r n)).trans ?_
  rw [← Equiv.sum_comp (contrEquiv1 DD 256 rfl rfl).symm]
  refine Finset.sum_congr rfl fun k _ => ?_
  rw [lhs_idx, rhs_idx]

/-- The bias row repeated down the rows: entry `(r, n)` is the row's entry `n`. -/
theorem bias_rows_apply (b : FVec Ideal S1x256 .f32) (r : Fin 2048) (n : Fin 256) :
    broadcastTo S2048x256 b broadcasts_S1x256_S2048x256 (ix2 r n) = b (ix2 0 n) :=
  broadcastTo_apply b broadcasts_S1x256_S2048x256 (ix2 r n) (ix2 0 n) (fun a => match a with
    | ⟨0, _⟩ => by show (0 : Nat) = if (1 : Nat) = 1 then 0 else _; rw [if_pos rfl]
    | ⟨1, _⟩ => by show n.val = if (256 : Nat) = 1 then 0 else n.val; rw [if_neg (by decide)])

/-- What one trip stores, at entry `(r, n)` of its band: `(∑ k, a[r, k] · w[n, k]) + b[0, n]`. -/
theorem pay_apply (w : Vec Ideal S256x256 .f32) (b : Vec Ideal S1x256 .f32) (a : Vec Ideal S2048x256 .f32)
    (r : Fin 2048) (n : Fin 256) :
    k0_pay1 (F := Ideal) w b a (ix2 r n) = (∑ k : Fin 256, a (ix2 r k) * w (ix2 n k)) + b (ix2 0 n) := by
  unfold k0_pay1
  refine (addf_apply _ _ (ix2 r n)).trans ?_
  refine congrArg₂ (· + ·) ?_ ?_
  · refine (band_matmul_apply _ _ r n).trans ?_
    refine Finset.sum_congr rfl fun k _ => ?_
    rw [shapeCast_self]
    rfl
  · refine (bias_rows_apply _ r n).trans ?_
    rw [shapeCast_self]

end Cert.DenseBody

end
-- ==== Proof.DenseBody.lean ====
/-
  What the kernel body leaves in the output block, as one function of its three input blocks.

  At a grid point the body holds an input block `x` of 8192 rows, the weights `w` and the bias row `b`. Its loop
  makes four trips; trip `j` reads rows `2048·j … 2048·j + 2047` of `x` and stores `band · wᵀ + b` into the same rows of
  the output block. Every entry the stores write is therefore the same function of `(x, w, b)` read at the entry's own
  position in the block,

      out[r, n] = (∑ k, x[r, k] · w[n, k]) + b[0, n],

  because a band's row `r'` is the block's row `2048·j + r'`, and that is exactly where the store puts it. The four bands
  tile the block, so the block ends at this function everywhere, whatever it held before.
-/
import proofs.«171428_j57827439673842_2_alg».proof.Proof.Gen.KernelIdeal.Frame
import proofs.«171428_j57827439673842_2_alg».proof.Proof.DensePayload
import Idealize.ShloMosaic.Lib.Pipeline.Value

set_option maxRecDepth 16384

noncomputable section

open Idealize.ShloMosaic Idealize.ShloMosaic.TcCoe Idealize.ShloMosaic.ValueIdx Idealize.SL.Sem
open scoped BigOperators

namespace Cert.DenseBody

open Cert.KernelIdeal Cert.KernelIdeal.Gen

section Pieces

variable {F : FTy → Type} [FloatOps F]
variable (c : Dev nD) (i : grid0.Coords)
  (a1 : Memref sig .tc .vmem S8192x256 .f32) (h1 : a1.IsWhole) (a2 : Memref sig .tc .vmem S256x256 .f32) (h2 : a2.IsWhole)
  (a3 : Memref sig .tc .vmem S1x256 .f32) (h3 : a3.IsWhole) (a4 : Memref sig .tc .vmem S8192x256 .f32) (h4 : a4.IsWhole)
  (w : Vec F S256x256 .f32) (b : Vec F S1x256 .f32) (X : BufTy.Contents (Elt F) a1.view.ty)

/-- One trip stores ONE piece: through the band's rectangle, the body's arithmetic on the band it loaded through that
    same rectangle. -/
theorem trip_pieces (k : Fin k0_t1_loop.trips) :
    tripL_k0_t1 (F := F) Variants.none c none i a1 h1 a2 h2 a3 h3 a4 h4 w b X k
      = [⟨Rect.unit (s := S8192x256) (k0_off1 k) S2048x256.size (k0_off1_inb k),
          k0_pay1 w b (View.readAt (Elt F) a1.view (Rect.unit (s := S8192x256) (k0_off1 k) S2048x256.size (k0_off1_inb k)).toLoadRect X)⟩] := by
  unfold tripL_k0_t1 trip_k0_t1
  rfl

/-- Every piece the trips before any `n` have stored is some trip's piece. -/
theorem mem_trips : ∀ (n : ℕ) (p : View.Piece (Elt F) S8192x256 .f32),
    p ∈ pb_k0_t1 (F := F) Variants.none c none i a1 h1 a2 h2 a3 h3 a4 h4 w b X n →
      ∃ k : Fin k0_t1_loop.trips, p ∈ tripL_k0_t1 (F := F) Variants.none c none i a1 h1 a2 h2 a3 h3 a4 h4 w b X k
  | 0, p, hp => by rw [pb_k0_t1.eq_1] at hp; exact absurd hp List.not_mem_nil
  | n + 1, p, hp => by
    rw [pb_k0_t1.eq_2] at hp
    unfold pb_k0_t1Step at hp
    by_cases h : n < k0_t1_loop.trips
    · rw [dif_pos h] at hp
      rcases List.mem_append.mp hp with hp | hp
      · exact ⟨⟨n, h⟩, hp⟩
      · exact mem_trips n p hp
    · rw [dif_neg h] at hp
      exact mem_trips n p hp

end Pieces

/-- The output block as a function of the input block `x`, the weights `w` and the bias row `b`. -/
def block (x : Vec Ideal S8192x256 .f32) (w : Vec Ideal S256x256 .f32) (b : Vec Ideal S1x256 .f32) : Vec Ideal S8192x256 .f32 :=
  fun y => (∑ k : Fin 256, x (ix2 (y 0) k) * w (ix2 (y 1) k)) + b (ix2 0 (y 1))

theorem hz : (![0, 0] : Fin 2 → Nat) = fun _ => 0 := funext fun a => by fin_cases a <;> rfl

/-- A band stored at row offset `off 0` (and column offset zero) agrees with `block x w b` where the store puts it: the
    band's row `r` is the block's row `off 0 + r`, both as the row that was loaded and as the row that is written. -/
theorem band_agrees (x : Vec Ideal S8192x256 .f32) (w : Vec Ideal S256x256 .f32) (b : Vec Ideal S1x256 .f32)
    (off : Fin 2 → ℕ) (inb : ∀ a, off a + S2048x256.size a ≤ S8192x256.size a) (hcol : off 1 = 0) (j : S2048x256.Idx) :
    k0_pay1 (F := Ideal) w b (View.ld x (Rect.unit (s := S8192x256) off S2048x256.size inb)) j
      = block x w b ((Rect.unit (s := S8192x256) off S2048x256.size inb).emb j) := by
  obtain ⟨r, n, rfl⟩ : ∃ (r : Fin 2048) (n : Fin 256), j = ix2 r n := ⟨j 0, j 1, eq_ix2 j⟩
  rw [pay_apply]
  unfold block
  have e1 : (Rect.unit (s := S8192x256) off S2048x256.size inb).emb (ix2 r n) 1 = n :=
    Fin.ext (by show off 1 + 1 * n.val = n.val; omega)
  have e0 : ∀ k : Fin 256, (Rect.unit (s := S8192x256) off S2048x256.size inb).idx (ix2 r k)
      = ix2 ((Rect.unit (s := S8192x256) off S2048x256.size inb).emb (ix2 r n) 0) k := fun k => funext fun a => Fin.ext (by
    match a with
    | ⟨0, _⟩ => rfl
    | ⟨1, _⟩ => show off 1 + 1 * k.val = k.val; omega)
  rw [e1]
  simp only [View.ld, e0]
  rfl

/-- The body leaves the output block at `block x w b`: every piece of every trip agrees with that one function, and the
    pieces cover the block. -/
theorem out_eq (c : Dev nD) (i : grid0.Coords)
    (a1 : Memref sig .tc .vmem S8192x256 .f32) (h1 : a1.IsWhole) (a2 : Memref sig .tc .vmem S256x256 .f32) (h2 : a2.IsWhole)
    (a3 : Memref sig .tc .vmem S1x256 .f32) (h3 : a3.IsWhole) (a4 : Memref sig .tc .vmem S8192x256 .f32) (h4 : a4.IsWhole)
    (x : Vec Ideal S8192x256 .f32) (w : Vec Ideal S256x256 .f32) (b : Vec Ideal S1x256 .f32) :
    out0_A_3 (F := Ideal) c i a1 h1 a2 h2 a3 h3 a4 h4 x w b = block x w b := by
  funext y
  unfold out0_A_3
  refine View.read_writes_apply_of_pieces VO0_3 _ (block x w b) _ ?_ y (cover0_A_3 c i a1 h1 a2 h2 a3 h3 a4 h4 x w b y)
  intro p hp j
  unfold kernelRun0_A at hp
  dsimp only at hp
  obtain ⟨k, hk⟩ := mem_trips c i a1 h1 a2 h2 a3 h3 a4 h4 _ _ _ _ p hp
  rw [trip_pieces] at hk
  obtain rfl := List.mem_singleton.mp hk
  simp only [View.readAt_eq_ld, h1.read_unread, h2.read_unread, h3.read_unread,
    View.ld_unit_zero (S := S256x256) hz, View.ld_unit_zero (S := S1x256) hz]
  exact band_agrees x w b (k0_off1 k) (k0_off1_inb k) rfl j

end Cert.DenseBody

end
-- ==== Proof.DenseSpec.lean ====
/-
  The function both programs compute, stated once over the argument arrays, and the one re-arrangement between them.

  For an input `x` of shape [16, 8192, 256], a weight matrix `w` of shape [256, 256] (rows indexed by the OUTPUT
  feature, columns by the input feature) and a bias `b` of shape [256], the dense layer is

      y[p, s, n] = (∑ k, x[p, s, k] · w[n, k]) + b[n]

  on the extended reals. One program computes it on the arrays as given. The other first flattens the two leading axes of
  `x` into 131072 rows and turns `b` into a row [1, 256], computes

      rows a w b' [i, n] = (∑ k, a[i, k] · w[n, k]) + b'[0, n]

  on the flat arrays, and un-flattens the result. Flattening is the row-major re-indexing `(p, s) ↦ 8192·p + s`, under which
  the two formulas are the same term by term. Nothing here needs finiteness: the same products are added over the same
  index set and the same bias entry is added last.
-/
import Idealize.ShloMosaic.PureOps.Ideal
import Idealize.ShloMosaic.Lib.ValueIdx
import Idealize.ShloMosaic.Lib.Pipeline.Value

noncomputable section

open Idealize.ShloMosaic Idealize.ShloMosaic.ValueIdx
open scoped BigOperators

namespace Cert.DenseSpec

/-- The shapes: the input, its flattening to rows, the weights, the bias and the bias as a row. -/
abbrev SX : Shape := ⟨3, ![16, 8192, 256]⟩
abbrev SR : Shape := ⟨2, ![131072, 256]⟩
abbrev SW : Shape := ⟨2, ![256, 256]⟩
abbrev SB : Shape := ⟨1, ![256]⟩
abbrev SBR : Shape := ⟨2, ![1, 256]⟩

/-- The dense layer `x · wᵀ + b`, entry by entry: entry `(p, s, n)` is the inner product of row `(p, s)` of `x`
    with row `n` of `w`, plus `b n`. -/
def dense (x : FVec Ideal SX .f32) (w : FVec Ideal SW .f32) (b : FVec Ideal SB .f32) : FVec Ideal SX .f32 :=
  fun i => (∑ k : Fin 256, x (ix3 (i 0) (i 1) k) * w (ix2 (i 2) k)) + b (ix1 (i 2))

theorem dense_apply (x : FVec Ideal SX .f32) (w : FVec Ideal SW .f32) (b : FVec Ideal SB .f32)
    (p : Fin 16) (s : Fin 8192) (n : Fin 256) :
    dense x w b (ix3 p s n) = (∑ k : Fin 256, x (ix3 p s k) * w (ix2 n k)) + b (ix1 n) := rfl

/-- The same layer on flat rows: entry `(i, n)` is the inner product of row `i` of `a` with row `n` of `w`, plus the
    bias row's entry `n`. -/
def rows (a : FVec Ideal SR .f32) (w : FVec Ideal SW .f32) (b : FVec Ideal SBR .f32) : FVec Ideal SR .f32 :=
  fun i => (∑ k : Fin 256, a (ix2 (i 0) k) * w (ix2 (i 1) k)) + b (ix2 0 (i 1))

theorem rows_apply (a : FVec Ideal SR .f32) (w : FVec Ideal SW .f32) (b : FVec Ideal SBR .f32)
    (i : Fin 131072) (n : Fin 256) :
    rows a w b (ix2 i n) = (∑ k : Fin 256, a (ix2 i k) * w (ix2 n k)) + b (ix2 0 n) := rfl

/-- The flat row of `(p, s)`: rows are laid out one `p` after another, 8192 to each. -/
def flat (p : Fin 16) (s : Fin 8192) : Fin 131072 := ⟨p.val * 8192 + s.val, by have := p.isLt; have := s.isLt; omega⟩

/-- Flattening the input: flat row `8192·p + s` is row `(p, s)`. -/
theorem flatten_apply (x : FVec Ideal SX .f32) (h : SX.ShapeCasts SR) (p : Fin 16) (s : Fin 8192) (k : Fin 256) :
    shapeCast SR x h (ix2 (flat p s) k) = x (ix3 p s k) :=
  shapeCast_apply x h (ix2 (flat p s) k) (ix3 p s k) (by
    rw [Shape.rowMajor_val_three, Shape.rowMajor_val_two]
    show (p.val * 8192 + s.val) * 256 + k.val = (p.val * 8192 + s.val) * 256 + k.val
    rfl)

/-- Un-flattening the result: entry `(p, s, n)` is the flat entry `(8192·p + s, n)`. -/
theorem unflatten_apply (y : FVec Ideal SR .f32) (h : SR.ShapeCasts SX) (p : Fin 16) (s : Fin 8192) (n : Fin 256) :
    shapeCast SX y h (ix3 p s n) = y (ix2 (flat p s) n) :=
  shapeCast_apply y h (ix3 p s n) (ix2 (flat p s) n) (by
    rw [Shape.rowMajor_val_three, Shape.rowMajor_val_two]
    show (p.val * 8192 + s.val) * 256 + n.val = (p.val * 8192 + s.val) * 256 + n.val
    rfl)

/-- The bias as a row: its entry `(0, n)` is `b n`. -/
theorem bias_row_apply (b : FVec Ideal SB .f32) (h : SB.ShapeCasts SBR) (n : Fin 256) :
    shapeCast SBR b h (ix2 0 n) = b (ix1 n) :=
  shapeCast_apply b h (ix2 0 n) (ix1 n) (by
    rw [Shape.rowMajor_val_one, Shape.rowMajor_val_two]
    show n.val = 0 * 256 + n.val
    omega)

/-- Flatten, compute on rows, un-flatten: the dense layer. -/
theorem unflatten_rows_eq_dense (x : FVec Ideal SX .f32) (w : FVec Ideal SW .f32) (b : FVec Ideal SB .f32)
    (h1 : SX.ShapeCasts SR) (h2 : SB.ShapeCasts SBR) (h3 : SR.ShapeCasts SX) :
    shapeCast SX (rows (shapeCast SR x h1) w (shapeCast SBR b h2)) h3 = dense x w b := by
  funext i
  obtain ⟨p, s, n, rfl⟩ : ∃ (p : Fin 16) (s : Fin 8192) (n : Fin 256), i = ix3 p s n := ⟨i 0, i 1, i 2, eq_ix3 i⟩
  rw [unflatten_apply, rows_apply, dense_apply]
  simp only [flatten_apply, bias_row_apply]

end Cert.DenseSpec

end
-- ==== Proof.DenseBlocks.lean ====
/-
  From the output's blocks to the whole output array.

  The grid has sixteen points. Point `t` takes rows `8192·t … 8192·t + 8191` of the input rows array `a` ([131072, 256])
  as its input block, the whole weight matrix and the whole bias row, and writes its output block back to the same rows
  of the result array. The body leaves each block at

      out[r, n] = (∑ k, a[8192·t + r, k] · w[n, k]) + b[0, n],

  which is the restriction to those rows of ONE function of the three arrays,

      rows a w b [i, n] = (∑ k, a[i, k] · w[n, k]) + b[0, n].

  The sixteen row blocks tile the array (row `i` lies in block `i / 8192`), so after the last point the result array is
  `rows a w b` everywhere.
-/
import proofs.«171428_j57827439673842_2_alg».proof.Proof.DenseBody
import proofs.«171428_j57827439673842_2_alg».proof.Proof.DenseSpec
import Idealize.ShloMosaic.Lib.Pipeline.Value

set_option maxRecDepth 16384

noncomputable section

open Idealize.ShloMosaic Idealize.ShloMosaic.TcCoe Idealize.ShloMosaic.ValueIdx Idealize.SL.Sem
open Idealize.ShloMosaic.Pipeline (Dat)
open scoped BigOperators

namespace Cert.DenseBlocks

open Cert.KernelIdeal Cert.KernelIdeal.Gen
open Cert.DenseSpec (rows)

variable (m : (ℓ : Loc nD τ sig) → Buf (Elt Ideal) ℓ)

/-- Where each window's block sits at point `t`: the input rows and the output move together, one block of rows per point;
    the weights and the bias row stay at their only block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- A block entry and an array entry are equal once the three operands they read agree, entry for entry. -/
theorem block_entry_eq_rows_entry (a : FVec Ideal S131072x256 .f32) (w : FVec Ideal S256x256 .f32) (b : FVec Ideal S1x256 .f32)
    (x : Vec Ideal S8192x256 .f32) (w' : Vec Ideal S256x256 .f32) (b' : Vec Ideal S1x256 .f32)
    (j : S8192x256.Idx) (i : S131072x256.Idx)
    (hx : ∀ k : Fin 256, x (ix2 (j 0) k) = a (ix2 (i 0) k))
    (hw : ∀ k : Fin 256, w' (ix2 (j 1) k) = w (ix2 (i 1) k))
    (hb : b' (ix2 0 (j 1)) = b (ix2 0 (i 1))) :
    Cert.DenseBody.block x w' b' j = rows a w b i := by
  unfold Cert.DenseBody.block rows
  simp only [hx, hw, hb]

/-- What point `t` writes back is block `t` of `rows` of the arrays as the region finds them. -/
theorem flushed_eq (c : Dev nD) (t : Fin cfg0.N) :
    (dats m 0 c).flushed 3 t
      = ((cfg0.win 3).blk t).view.read (Elt Ideal) (rows (V m c main_v0) (V m c main_arg1) (V m c main_v1)) := by
  show (cfg0.win 3).cut (grid0.coords t) ((dats m 0 c).after 3 t) = _
  rw [after0_3]
  unfold outsAt0
  rw [Cert.DenseBody.out_eq]
  obtain ⟨e00, e01, e10, e11, e20, e21, e30, e31⟩ := block_indices t
  refine funext fun (j : S8192x256.Idx) => ?_
  show Cert.DenseBody.block (iblk m c 0 t) (iblk m c 1 t) (iblk m c 2 t) j
    = rows (V m c main_v0) (V m c main_arg1) (V m c main_v1) (((cfg0.win 3).blk t).view.emb j)
  refine block_entry_eq_rows_entry (V m c main_v0) (V m c main_arg1) (V m c main_v1)
    (iblk m c 0 t) (iblk m c 1 t) (iblk m c 2 t) j (((cfg0.win 3).blk t).view.emb j) (fun k => ?_) (fun k => ?_) ?_
  · show V m c main_v0 (((cfg0.win 0).blk t).view.emb (ix2 (j 0) k)) = V m c main_v0 (ix2 ((((cfg0.win 3).blk t).view.emb j) 0) k)
    refine congrArg (V m c main_v0) (funext fun a => Fin.ext ?_)
    match a with
    | ⟨0, _⟩ => show win0_0.index t (0 : Fin 2) * 8192 + 1 * (j 0).val = win0_3.index t (0 : Fin 2) * 8192 + 1 * (j 0).val; omega
    | ⟨1, _⟩ => show win0_0.index t (1 : Fin 2) * 256 + 1 * k.val = k.val; omega
  · show V m c main_arg1 (((cfg0.win 1).blk t).view.emb (ix2 (j 1) k)) = V m c main_arg1 (ix2 ((((cfg0.win 3).blk t).view.emb j) 1) k)
    refine congrArg (V m c main_arg1) (funext fun a => Fin.ext ?_)
    match a with
    | ⟨0, _⟩ => show win0_1.index t (0 : Fin 2) * 256 + 1 * (j 1).val = win0_3.index t (1 : Fin 2) * 256 + 1 * (j 1).val; omega
    | ⟨1, _⟩ => show win0_1.index t (1 : Fin 2) * 256 + 1 * k.val = k.val; omega
  · show V m c main_v1 (((cfg0.win 2).blk t).view.emb (ix2 0 (j 1))) = V m c main_v1 (ix2 0 ((((cfg0.win 3).blk t).view.emb j) 1))
    refine congrArg (V m c main_v1) (funext fun a => Fin.ext ?_)
    match a with
    | ⟨0, _⟩ => show win0_2.index t (0 : Fin 2) * 1 + 1 * 0 = 0; omega
    | ⟨1, _⟩ => show win0_2.index t (1 : Fin 2) * 256 + 1 * (j 1).val = win0_3.index t (1 : Fin 2) * 256 + 1 * (j 1).val; omega

/-- An index of the result array lies in point `t`'s block exactly when each coordinate lies in the block's range. -/
theorem mem_block (t : Fin cfg0.N) (i : S131072x256.Idx) :
    i ∈ ((cfg0.win 3).blk t).view.set ↔ ∀ a : Fin 2, win0_3.index t a * S8192x256.size a ≤ (i a).val
      ∧ (i a).val < win0_3.index t a * S8192x256.size a + S8192x256.size a := by
  show i ∈ ((View.whole main_v2).slice (win0_3.rect t)).set ↔ _
  rw [View.set_slice_whole, Rect.mem_set_unit]
  exact Iff.rfl

/-- Every row of the result array lies in the block of the point `row / 8192`, and every point writes its block back. -/
theorem covered (i : S131072x256.Idx) :
    ∃ t : Fin cfg0.N, (cfg0.win 3).flush t = true ∧ i ∈ ((cfg0.win 3).blk t).view.set := by
  have hi0 : (i 0).val < 131072 := (i 0).isLt
  have hi1 : (i 1).val < 256 := (i 1).isLt
  have hN : cfg0.N = 16 := N_0
  have ht : (i 0).val / 8192 < cfg0.N := by rw [hN]; omega
  obtain ⟨-, -, -, -, -, -, e30, e31⟩ := block_indices ⟨(i 0).val / 8192, ht⟩
  refine ⟨⟨(i 0).val / 8192, ht⟩, flush0_3 _, ?_⟩
  rw [mem_block]
  intro a
  match a with
  | ⟨0, _⟩ =>
    show win0_3.index ⟨(i 0).val / 8192, ht⟩ (0 : Fin 2) * 8192 ≤ (i 0).val
      ∧ (i 0).val < win0_3.index ⟨(i 0).val / 8192, ht⟩ (0 : Fin 2) * 8192 + 8192
    rw [e30]
    show (i 0).val / 8192 * 8192 ≤ (i 0).val ∧ (i 0).val < (i 0).val / 8192 * 8192 + 8192
    omega
  | ⟨1, _⟩ =>
    show win0_3.index ⟨(i 0).val / 8192, ht⟩ (1 : Fin 2) * 256 ≤ (i 1).val
      ∧ (i 1).val < win0_3.index ⟨(i 0).val / 8192, ht⟩ (1 : Fin 2) * 256 + 256
    omega

/-- After the last point the result array is `rows` of the arrays the region read. -/
theorem final (c : Dev nD) :
    (dats m 0 c).arrAt 3 cfg0.N = rows (V m c main_v0) (V m c main_arg1) (V m c main_v1) :=
  (dats m 0 c).arrAt_eq_of_cover 3 (rows (V m c main_v0) (V m c main_arg1) (V m c main_v1))
    (fun t _ => flushed_eq m c t) (covered)

end Cert.DenseBlocks

end
-- ==== Proof.DenseHost.lean ====
/-
  The host operations around the region.

  Before the region the program flattens the input's two leading axes into rows and turns the bias into a row; the
  weights are used as given. After the region it un-flattens the region's result array. All three are re-arrangements that
  move no value: each takes the operand's entries in row-major order into the new shape.
-/
import proofs.«171428_j57827439673842_2_alg».proof.Proof.Gen.KernelIdeal.Frame
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.StableHlo
open Idealize.ShloMosaic.Pipeline (Dat)

namespace Cert.DenseHost

open Cert.KernelIdeal Cert.KernelIdeal.Gen

variable {F : FTy → Type} [FloatOps F]
variable (m : (ℓ : Loc nD τ sig) → Buf (Elt F) ℓ)

/-- The rows array the region reads is the input with its two leading axes flattened. -/
theorem rows_array (c : Dev nD) :
    (V m c main_v0 : S131072x256.Idx → Elt F .f32)
      = shapeCast S131072x256 (m ((c : Thread nD τ).loc main_arg0)) shapeCasts_S16x8192x256_S131072x256 := by
  show StableHlo.after hostOps0 (fun b => m (c, b)) (Proc.devRef .tc main_v0) = _
  after_results
  rfl

/-- The bias row the region reads is the bias as a [1, 256] array. -/
theorem bias_row_array (c : Dev nD) :
    (V m c main_v1 : S1x256.Idx → Elt F .f32)
      = shapeCast S1x256 (m ((c : Thread nD τ).loc main_arg2)) shapeCasts_S256_S1x256 := by
  show StableHlo.after hostOps0 (fun b => m (c, b)) (Proc.devRef .tc main_v1) = _
  after_results
  rfl

/-- The program's result is the region's result array un-flattened. -/
theorem result_array (c : Dev nD) :
    (Pipeline.afterTail₀ cfgs (dats m) 0 (V0 m) [hostOps1] c main_v3 : S16x8192x256.Idx → Elt F .f32)
      = shapeCast S16x8192x256 ((dats m 0 c).arrAt 3 cfg0.N) shapeCasts_S131072x256_S16x8192x256 := by
  unfold Pipeline.afterTail₀
  show StableHlo.after hostOps1 _ (Proc.devRef .tc main_v3) = _
  after_results
  have e := Pipeline.withArrays_arr spec0 launch0.win.arr_inj c (V0 m c) (fun w => (dats m 0 c).arrAt w (cfgs 0).N) 3
  funext i
  exact congrArg (fun z : S131072x256.Idx → Elt F .f32 =>
    shapeCast S16x8192x256 z shapeCasts_S131072x256_S16x8192x256 i) e

end Cert.DenseHost

end
-- ==== Proof.DenseKernel.lean ====
/-
  The idealized kernel's run, read as a value.

  The program flattens the input to rows, turns the bias into a row, runs the region — which leaves its result array at
  `rows` of the flat arrays — and un-flattens that array. Flatten, `rows`, un-flatten is the dense layer of the three
  arguments, so every execution ends with the result at `dense x w b` and the arguments as they were.
-/
import proofs.«171428_j57827439673842_2_alg».proof.Proof.DenseBlocks
import proofs.«171428_j57827439673842_2_alg».proof.Proof.DenseHost
import proofs.«171428_j57827439673842_2_alg».proof.Proof.DenseSpec

set_option maxRecDepth 16384

noncomputable section

open Idealize.ShloMosaic Idealize.ShloMosaic.TcCoe Idealize.SL.Sem
open Idealize.ShloMosaic.Pipeline (Dat)

namespace Cert.DenseKernel

open Cert.KernelIdeal Cert.KernelIdeal.Gen

variable (m : (ℓ : Loc nD τ sig) → Buf (Elt Ideal) ℓ) (ρ : Dev nD → PrngReg)

/-- The program's result is the dense layer of its three argument arrays. -/
theorem result_eq_dense (c : Dev nD) :
    (Pipeline.afterTail₀ cfgs (dats m) 0 (V0 m) [hostOps1] c main_v3 : S16x8192x256.Idx → Elt Ideal .f32)
      = Cert.DenseSpec.dense (m ((c : Thread nD τ).loc main_arg0)) (m ((c : Thread nD τ).loc main_arg1))
          (m ((c : Thread nD τ).loc main_arg2)) := by
  rw [Cert.DenseHost.result_array, Cert.DenseBlocks.final, Cert.DenseHost.rows_array, Cert.DenseHost.bias_row_array,
    V_main_arg1]
  exact Cert.DenseSpec.unflatten_rows_eq_dense _ _ _ _ _ _

/-- Every weakly fair execution terminates with the result at the dense layer of the arguments and the arguments
    unchanged. -/
theorem run : θ_run defs (onTc (τ := τ) (main (F := Ideal))) ⟨m, fun _ => 0, ρ⟩ fun r => ∀ c : Dev nD,
      r.2.mem ((c.tc : Thread nD τ).loc main_v3)
        = Cert.DenseSpec.dense (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (result_eq_dense m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.DenseKernel

end
-- ==== Proof.DenseRef.lean ====
/-
  The reference computes the dense layer.

  The reference is four host operations: a `dot_general` contracting the last axis of `x` with the second axis of `w`,
  two broadcasts that repeat the bias along the two leading axes, and an addition. Read entry by entry on the extended
  reals, the contraction at `(p, s, n)` is `∑ k, x[p, s, k] · w[n, k]`, the broadcast bias there is `b[n]`, and their sum
  is the dense layer's entry.
-/
import proofs.«171428_j57827439673842_2_alg».proof.Proof.Gen.ReferenceIdeal.Read
import proofs.«171428_j57827439673842_2_alg».proof.Proof.DenseSpec

noncomputable section

open Idealize.ShloMosaic Idealize.ShloMosaic.ValueIdx
open scoped BigOperators

namespace Cert.DenseRef

open Cert.ReferenceIdeal Cert.ReferenceIdeal.Read

/-- The reference's result term is the dense layer of its three arguments. -/
theorem ref_eq_dense (x : FVec Ideal S16x8192x256 .f32) (w : FVec Ideal S256x256 .f32) (b : FVec Ideal S256 .f32) :
    val_main_v3 (F := Ideal) x w b = Cert.DenseSpec.dense x w b := by
  funext i
  have e1 : ∀ k : Fin 256, lidx_main_v0 i k = ix3 (i 0) (i 1) k := fun k => funext fun a => Fin.ext (by
    match a with
    | ⟨0, _⟩ => rfl
    | ⟨1, _⟩ => rfl
    | ⟨2, _⟩ => rfl)
  have e2 : ∀ k : Fin 256, ridx_main_v0 i k = ix2 (i 2) k := fun k => funext fun a => Fin.ext (by
    match a with
    | ⟨0, _⟩ => rfl
    | ⟨1, _⟩ => rfl)
  have e3 : idx_main_v1 (idx_main_v2 i) = ix1 (i 2) := funext fun a => Fin.ext (by
    match a with
    | ⟨0, _⟩ => rfl)
  rw [val_main_v3_apply, val_main_v0_apply, val_main_v2_apply, val_main_v1_apply]
  simp only [e1, e2, e3]
  rfl

end Cert.DenseRef

end
-- ==== Proof.lean ====
/-
  The certificate of the dense layer `y = x · wᵀ + b` (x : [16, 8192, 256], w : [256, 256], b : [256]).

  The kernel flattens `x` to 131072 rows, walks them in sixteen blocks of 8192 rows, and inside each block makes four
  trips of 2048 rows; each trip multiplies its band by the transposed weights from a zero accumulator and adds the bias row.
  The reference contracts the last axis of `x` with the second axis of `w` in one operation and adds the broadcast bias.
  On the extended reals both are

      y[p, s, n] = (∑ k, x[p, s, k] · w[n, k]) + b[n]:

  a change of float format is the identity, a matrix product into a zero accumulator is the plain sum of products, and the
  tiling into blocks and bands only decides WHERE each entry is computed, not what it is. No law is used that fails at an
  infinity, so the precondition that the inputs are finite is never opened.

  The three frames are the generated frame runs (the reference's is its generated run with the result dropped); the
  idealization rewrote nothing, so `preserves` is trivial; the value claim puts the two runs side by side at the same
  function `Cert.DenseSpec.dense` of the arguments.
-/
import proofs.«171428_j57827439673842_2_alg».proof.Defs
import proofs.«171428_j57827439673842_2_alg».proof.Proof.Gen.Kernel
import proofs.«171428_j57827439673842_2_alg».proof.Proof.Gen.Kernel.Frame
import proofs.«171428_j57827439673842_2_alg».proof.Proof.Gen.KernelIdeal
import proofs.«171428_j57827439673842_2_alg».proof.Proof.Gen.KernelIdeal.Frame
import proofs.«171428_j57827439673842_2_alg».proof.Proof.Gen.ReferenceIdeal
import proofs.«171428_j57827439673842_2_alg».proof.Proof.Gen.ReferenceIdeal.Run
import proofs.«171428_j57827439673842_2_alg».proof.Proof.Gen.ReferenceIdeal.Read
import proofs.«171428_j57827439673842_2_alg».proof.Proof.Gen.Pre_finite_inputs
import proofs.«171428_j57827439673842_2_alg».proof.Proof.DenseKernel
import proofs.«171428_j57827439673842_2_alg».proof.Proof.DenseRef
import Idealize.ShloMosaic.Adequacy
import Idealize.ShloMosaic.Init

noncomputable section

namespace Cert.Proof

open Idealize.ShloMosaic Idealize.SL.Sem

/-- The kernel as printed runs, faults nowhere and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the dense layer of those arguments. -/
theorem algebraic : Cert.algebraic_KernelIdeal_ReferenceIdeal := by
  intro m ρ m' ρ' _ hagree
  refine ⟨fun c => Cert.DenseSpec.dense (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.DenseKernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.DenseRef.ref_eq_dense, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
